-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S3072x1024 : Shape := ⟨2, ![3072, 1024]⟩
abbrev S3072 : Shape := ⟨1, ![3072]⟩
abbrev S5x1024 : Shape := ⟨2, ![5, 1024]⟩
abbrev S1024x5 : Shape := ⟨2, ![1024, 5]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S5x1024 : S_.BroadcastsInDim S5x1024 (![] : Fin 0 → Fin S5x1024.rank)
  reducesTo_S5x1024_S_d0_1 : S5x1024.ReducesTo [0, 1] S_
  bcast_S_S1024x5 : S_.BroadcastsInDim S1024x5 (![] : Fin 0 → Fin S1024x5.rank)
  reducesTo_S1024x5_S_d0_1 : S1024x5.ReducesTo [0, 1] S_
  reducesTo_S_S_d : S_.ReducesTo [] S_

variable [Facts]

def fn_part2 {F : FTy → Type} [FloatOps F] (main_arg7 : FVec F S_ .f32) (main_arg8 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S_ .f32 := Host.absf main_arg8
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  main_v41

def fn_part1 {F : FTy → Type} [FloatOps F] (main_arg4 : FVec F S5x1024 .f32) (main_arg5 : FVec F S1024x5 .f32) (main_arg6 : FVec F S1024x5 .f32) (main_arg7 : FVec F S_ .f32) (main_arg8 : FVec F S_ .f32) (main_v13 : IVec S_ 1) (main_v16 : IVec S5x1024 1) : IVec S_ 1 :=
  let main_c_5 : IVec S_ 1 := constantI S_ 1 1#1
  let main_v17 : IVec S_ 1 := (fun x v => Host.reduce IntOp.andi x v reducesTo_S5x1024_S_d0_1 h_S_) main_v16 main_c_5
  let main_v18 : IVec S_ 1 := andi main_v13 main_v17
  let main_v19 : FVec F S5x1024 .f32 := Host.absf main_arg4
  let main_cst_6 : FVec F S_ .f32 := constant S_ .f32 0x7F800000#32
  let main_v20 : FVec F S5x1024 .f32 := broadcastInDim S5x1024 ![] bcast_S_S5x1024 main_cst_6
  let main_v21 : IVec S5x1024 1 := cmpf .olt main_v19 main_v20
  let main_c_7 : IVec S_ 1 := constantI S_ 1 1#1
  let main_v22 : IVec S_ 1 := (fun x v => Host.reduce IntOp.andi x v reducesTo_S5x1024_S_d0_1 h_S_) main_v21 main_c_7
  let main_v23 : IVec S_ 1 := andi main_v18 main_v22
  let main_v24 : FVec F S1024x5 .f32 := Host.absf main_arg5
  let main_cst_8 : FVec F S_ .f32 := constant S_ .f32 0x7F800000#32
  let main_v25 : FVec F S1024x5 .f32 := broadcastInDim S1024x5 ![] bcast_S_S1024x5 main_cst_8
  let main_v26 : IVec S1024x5 1 := cmpf .olt main_v24 main_v25
  let main_c_9 : IVec S_ 1 := constantI S_ 1 1#1
  let main_v27 : IVec S_ 1 := (fun x v => Host.reduce IntOp.andi x v reducesTo_S1024x5_S_d0_1 h_S_) main_v26 main_c_9
  let main_v28 : IVec S_ 1 := andi main_v23 main_v27
  let main_v29 : FVec F S1024x5 .f32 := Host.absf main_arg6
  let main_cst_10 : FVec F S_ .f32 := constant S_ .f32 0x7F800000#32
  let main_v30 : FVec F S1024x5 .f32 := broadcastInDim S1024x5 ![] bcast_S_S1024x5 main_cst_10
  let main_v31 : IVec S1024x5 1 := cmpf .olt main_v29 main_v30
  let main_c_11 : IVec S_ 1 := constantI S_ 1 1#1
  let main_v32 : IVec S_ 1 := (fun x v => Host.reduce IntOp.andi x v reducesTo_S1024x5_S_d0_1 h_S_) main_v31 main_c_11
  let main_v33 : IVec S_ 1 := andi main_v28 main_v32
  fn_part2 (F := F) main_arg7 main_arg8 main_v33

def fn {F : FTy → Type} [FloatOps F] (main_arg0 : FVec F S32x1024x1024 .f32) (main_arg1 : FVec F S3072x1024 .f32) (main_arg2 : FVec F S3072 .f32) (main_arg3 : FVec F S5x1024 .f32) (main_arg4 : FVec F S5x1024 .f32) (main_arg5 : FVec F S1024x5 .f32) (main_arg6 : FVec F S1024x5 .f32) (main_arg7 : FVec F S_ .f32) (main_arg8 : FVec F S_ .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S5x1024 .f32 := Host.absf main_arg3
  let main_cst_4 : FVec F S_ .f32 := constant S_ .f32 0x7F800000#32
  let main_v15 : FVec F S5x1024 .f32 := broadcastInDim S5x1024 ![] bcast_S_S5x1024 main_cst_4
  let main_v16 : IVec S5x1024 1 := cmpf .olt main_v14 main_v15
  fn_part1 (F := F) main_arg4 main_arg5 main_arg6 main_arg7 main_arg8 main_v13 main_v16
-- ==== Kernel.lean ====
abbrev S32x1024x1024 : Shape := ⟨3, ![32, 1024, 1024]⟩
abbrev S3072x1024 : Shape := ⟨2, ![3072, 1024]⟩
abbrev S3072 : Shape := ⟨1, ![3072]⟩
abbrev S5x1024 : Shape := ⟨2, ![5, 1024]⟩
abbrev S1024x5 : Shape := ⟨2, ![1024, 5]⟩
abbrev S_ : Shape := ⟨0, ![]⟩
abbrev S1024x1024 : Shape := ⟨2, ![1024, 1024]⟩
abbrev S2048x1024 : Shape := ⟨2, ![2048, 1024]⟩
abbrev S1024x3072 : Shape := ⟨2, ![1024, 3072]⟩
abbrev S1x3072 : Shape := ⟨2, ![1, 3072]⟩
abbrev S32768x1024 : Shape := ⟨2, ![32768, 1024]⟩
abbrev S32768x3072 : Shape := ⟨2, ![32768, 3072]⟩
abbrev S512x1024 : Shape := ⟨2, ![512, 1024]⟩
abbrev S512x3072 : Shape := ⟨2, ![512, 3072]⟩
abbrev S32x1024x3072 : Shape := ⟨3, ![32, 1024, 3072]⟩

abbrev nBuf : Space → Nat
  | .hbm => 26
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S3072x1024, .f32⟩
  | .hbm, ⟨2, _⟩ => ⟨S3072, .f32⟩
  | .hbm, ⟨3, _⟩ => ⟨S5x1024, .f32⟩
  | .hbm, ⟨4, _⟩ => ⟨S5x1024, .f32⟩
  | .hbm, ⟨5, _⟩ => ⟨S1024x5, .f32⟩
  | .hbm, ⟨6, _⟩ => ⟨S1024x5, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S2048x1024, .f32⟩
  | .hbm, ⟨16, _⟩ => ⟨S_, .f32⟩
  | .hbm, ⟨17, _⟩ => ⟨S1024x1024, .f32⟩
  | .hbm, ⟨18, _⟩ => ⟨S3072x1024, .f32⟩
  | .hbm, ⟨19, _⟩ => ⟨S3072x1024, .f32⟩
  | .hbm, ⟨20, _⟩ => ⟨S1024x3072, .f32⟩
  | .hbm, ⟨21, _⟩ => ⟨S1024x3072, .bf16⟩
  | .hbm, ⟨22, _⟩ => ⟨S1x3072, .f32⟩
  | .hbm, ⟨23, _⟩ => ⟨S32768x1024, .f32⟩
  | .hbm, ⟨24, _⟩ => ⟨S32768x3072, .f32⟩
  | .hbm, ⟨25, _⟩ => ⟨S32x1024x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x1024 : S_.BroadcastsInDim S1024x1024 (![] : Fin 0 → Fin S1024x1024.rank)
  concatenates_S1024x1024_S1024x1024_S2048x1024_d0 : Shape.Concatenates [S1024x1024, S1024x1024] S2048x1024 0
  concatenates_S1024x1024_S2048x1024_S3072x1024_d0 : Shape.Concatenates [S1024x1024, S2048x1024] S3072x1024 0
  transposes_S3072x1024_S1024x3072_1_0 : S3072x1024.Transposes [1, 0] S1024x3072
  bitsLt_bf16_f32 : FTy.bits .bf16 < FTy.bits .f32
  shapeCasts_S3072_S1x3072 : S3072.ShapeCasts S1x3072
  shapeCasts_S32x1024x1024_S32768x1024 : S32x1024x1024.ShapeCasts S32768x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S32768x3072_S32x1024x3072 : S32768x3072.ShapeCasts S32x1024x3072
  dot_S1024x5_S5x1024_S1024x1024_1_0_0_1_n_n_wf : DotDims.WF S1024x5 S5x1024 S1024x1024 [1] [0] [0] [1] [] []
  dot_S512x1024_S1024x3072_S512x3072_1_0_0_1_n_n_wf : DotDims.WF S512x1024 S1024x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S32768x3072.size a
  hwx0_3 : ∀ i : grid0.Coords, EltTy.bits .f32 = 32 ∨ (Rect.block (s := S32768x3072) S512x3072.size (cc0_transform_3 i) (hinb0_3 i)).WholeWords (EltTy.packing .f32)

variable [Facts₀]

def dot_S1024x5_S5x1024_S1024x1024_1_0_0_1_n_n : DotDims S1024x5 S5x1024 S1024x1024 where
  lhsContracting := [1]
  rhsContracting := [0]
  lhsNonContracting := [0]
  rhsNonContracting := [1]
  lhsBatch := []
  rhsBatch := []
  wf := dot_S1024x5_S5x1024_S1024x1024_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf

abbrev win0_0 : Pipeline.Window sig grid0 :=
  Pipeline.Window.ofSpec (Memref.whole main_v13) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S3072x1024 : Shape := ⟨2, ![3072, 1024]⟩
abbrev S3072 : Shape := ⟨1, ![3072]⟩
abbrev S5x1024 : Shape := ⟨2, ![5, 1024]⟩
abbrev S1024x5 : Shape := ⟨2, ![1024, 5]⟩
abbrev S_ : Shape := ⟨0, ![]⟩
abbrev S1024x1024 : Shape := ⟨2, ![1024, 1024]⟩
abbrev S2048x1024 : Shape := ⟨2, ![2048, 1024]⟩
abbrev S32x1024x3072 : Shape := ⟨3, ![32, 1024, 3072]⟩
abbrev S1x1x3072 : Shape := ⟨3, ![1, 1, 3072]⟩

abbrev nBuf : Space → Nat
  | .hbm => 24
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S3072x1024, .f32⟩
  | .hbm, ⟨2, _⟩ => ⟨S3072, .f32⟩
  | .hbm, ⟨3, _⟩ => ⟨S5x1024, .f32⟩
  | .hbm, ⟨4, _⟩ => ⟨S5x1024, .f32⟩
  | .hbm, ⟨5, _⟩ => ⟨S1024x5, .f32⟩
  | .hbm, ⟨6, _⟩ => ⟨S1024x5, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S2048x1024, .f32⟩
  | .hbm, ⟨16, _⟩ => ⟨S_, .f32⟩
  | .hbm, ⟨17, _⟩ => ⟨S1024x1024, .f32⟩
  | .hbm, ⟨18, _⟩ => ⟨S3072x1024, .f32⟩
  | .hbm, ⟨19, _⟩ => ⟨S3072x1024, .f32⟩
  | .hbm, ⟨20, _⟩ => ⟨S32x1024x3072, .f32⟩
  | .hbm, ⟨21, _⟩ => ⟨S1x1x3072, .f32⟩
  | .hbm, ⟨22, _⟩ => ⟨S32x1024x3072, .f32⟩
  | .hbm, ⟨23, _⟩ => ⟨S32x1024x3072, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  concatenates_S1024x1024_S1024x1024_S2048x1024_d0 : Shape.Concatenates [S1024x1024, S1024x1024] S2048x1024 0
  concatenates_S1024x1024_S2048x1024_S3072x1024_d0 : Shape.Concatenates [S1024x1024, S2048x1024] S3072x1024 0
  bcast_S3072_S1x1x3072_2 : S3072.BroadcastsInDim S1x1x3072 (![2] : Fin 1 → Fin S1x1x3072.rank)
  bcast_S1x1x3072_S32x1024x3072_0_1_2 : S1x1x3072.BroadcastsInDim S32x1024x3072 (![0, 1, 2] : Fin 3 → Fin S32x1024x3072.rank)
  dot_S1024x5_S5x1024_S1024x1024_1_0_0_1_n_n_wf : DotDims.WF S1024x5 S5x1024 S1024x1024 [1] [0] [0] [1] [] []
  dot_S32x1024x1024_S3072x1024_S32x1024x3072_2_1_01_0_n_n_wf : DotDims.WF S32x1024x1024 S3072x1024 S32x1024x3072 [2] [1] [0, 1] [0] [] []

variable [Facts₀]

def dot_S1024x5_S5x1024_S1024x1024_1_0_0_1_n_n : DotDims S1024x5 S5x1024 S1024x1024 where
  lhsContracting := [1]
  rhsContracting := [0]
  lhsNonContracting := [0]
  rhsNonContracting := [1]
  lhsBatch := []
  rhsBatch := []
  wf := dot_S1024x5_S5x1024_S1024x1024_1_0_0_1_n_n_wf
def dot_S32x1024x1024_S3072x1024_S32x1024x3072_2_1_01_0_n_n : DotDims S32x1024x1024 S3072x1024 S32x1024x3072 where
  lhsContracting := [2]
  rhsContracting := [1]
  lhsNonContracting := [0, 1]
  rhsNonContracting := [0]
  lhsBatch := []
  rhsBatch := []
  wf := dot_S32x1024x1024_S3072x1024_S32x1024x3072_2_1_01_0_n_n_wf

class Facts : Prop extends Facts₀ where

variable [Facts]
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibLinearRows.lean ====
/-
  A linear layer over a batch of rows, and the same numbers computed on the tall matrix of all the rows.

  For an input x : [B, S, D], a weight w : [O, D] and a bias : [O] the layer is
      linear x w bias (b, s, o) = (∑ k, x (b, s, k) * w (o, k)) + bias o.
  A kernel that tiles the rows works instead on the tall matrix X : [n, D], n = B * S, of all the rows (row
  b * S + s of X is row s of batch entry b), on the transposed weight Wt : [D, O] and on the bias laid out as a
  one-row matrix [1, O]:
      rows X Wt r (j, o) = (∑ k, X (j, k) * Wt (k, o)) + r (0, o),
  and its result [n, O] is cut back into [B, S, O]. Entry (j, o) of `rows` reads row j of X only, so a block of
  rows of the result is the same function of that block of rows of X: a matrix product of the block with Wt from
  the zero accumulator, plus the bias row repeated down the block. The two arrangements hold the same numbers, each
  product with its factors in the same order: nothing is used but where an entry sits, so no finiteness is needed.
  A change of float format is the identity on the exact values. General in the extents.
-/
import Idealize.ShloMosaic.PureOps.Ideal.Laws
import Idealize.ShloMosaic.Lib.ValueIdx
import Idealize.ShloMosaic.Lib.ValueLayout
import Idealize.ShloMosaic.Lib.Pipeline.Value
import proofs.«147757_j88158498718371_2_alg».proof.Proof.LibMatmulPlain
import proofs.«147757_j88158498718371_2_alg».proof.Proof.LibAxisReads

noncomputable section

open scoped BigOperators

namespace Cert.LinearRows

open Idealize.ShloMosaic Idealize.ShloMosaic.ValueIdx

variable {B S D O n M : ℕ}

/-- The layer: entry (b, s, o) is row (b, s) of the input against row o of the weight, plus the bias at o. -/
def linear (x : FVec Ideal ⟨3, ![B, S, D]⟩ .f32) (w : FVec Ideal ⟨2, ![O, D]⟩ .f32) (bias : FVec Ideal ⟨1, ![O]⟩ .f32) :
    FVec Ideal ⟨3, ![B, S, O]⟩ .f32 :=
  fun i => (∑ k : Fin D, x (ix3 (i 0) (i 1) k) * w (ix2 (i 2) k)) + bias (ix1 (i 2))

theorem linear_apply (x : FVec Ideal ⟨3, ![B, S, D]⟩ .f32) (w : FVec Ideal ⟨2, ![O, D]⟩ .f32)
    (bias : FVec Ideal ⟨1, ![O]⟩ .f32) (b : Fin B) (s : Fin S) (o : Fin O) :
    linear x w bias (ix3 b s o) = (∑ k : Fin D, x (ix3 b s k) * w (ix2 o k)) + bias (ix1 o) := rfl

/-- The layer on a matrix of rows, the weight transposed and the bias a one-row matrix: entry (j, o) is row j of X
    against column o of Wt, plus the bias row at o. -/
def rows (X : FVec Ideal ⟨2, ![n, D]⟩ .f32) (Wt : FVec Ideal ⟨2, ![D, O]⟩ .bf16) (r : FVec Ideal ⟨2, ![1, O]⟩ .f32) :
    FVec Ideal ⟨2, ![n, O]⟩ .f32 :=
  fun j => (∑ k : Fin D, X (ix2 (j 0) k) * Wt (ix2 k (j 1))) + r (ix2 (0 : Fin 1) (j 1))

theorem rows_apply (X : FVec Ideal ⟨2, ![n, D]⟩ .f32) (Wt : FVec Ideal ⟨2, ![D, O]⟩ .bf16)
    (r : FVec Ideal ⟨2, ![1, O]⟩ .f32) (p : Fin n) (o : Fin O) :
    rows X Wt r (ix2 p o) = (∑ k : Fin D, X (ix2 p k) * Wt (ix2 k o)) + r (ix2 (0 : Fin 1) o) := rfl

/-- A block of M rows as a row-tiled kernel computes it — the block narrowed to the weight's format, multiplied
    with Wt from the zero accumulator, the bias row repeated down the block and added — read at (p, q): row p of the
    block against column q of Wt, plus the bias row at q. -/
theorem body_apply (d : DotDims ⟨2, ![M, D]⟩ ⟨2, ![D, O]⟩ ⟨2, ![M, O]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x0 : FVec Ideal ⟨2, ![M, D]⟩ .f32) (wt : FVec Ideal ⟨2, ![D, O]⟩ .bf16) (r : FVec Ideal ⟨2, ![1, O]⟩ .f32)
    (hx : (⟨2, ![M, D]⟩ : Shape).ShapeCasts ⟨2, ![M, D]⟩) (hw : (⟨2, ![D, O]⟩ : Shape).ShapeCasts ⟨2, ![D, O]⟩)
    (hr : (⟨2, ![1, O]⟩ : Shape).ShapeCasts ⟨2, ![1, O]⟩) (hb : (⟨2, ![1, O]⟩ : Shape).Broadcasts ⟨2, ![M, O]⟩)
    (hlt : FTy.bf16.bits < FTy.f32.bits) (p : Fin M) (q : Fin O) :
    addf (matmul d prec (truncf .bf16 (shapeCast ⟨2, ![M, D]⟩ x0 hx) hlt) (shapeCast ⟨2, ![D, O]⟩ wt hw)
        (constant (F := Ideal) ⟨2, ![M, O]⟩ .f32 0x00000000#32))
      (broadcastTo ⟨2, ![M, O]⟩ (shapeCast ⟨2, ![1, O]⟩ r hr) hb) (ix2 p q)
    = (∑ k : Fin D, x0 (ix2 p k) * wt (ix2 k q)) + r (ix2 (0 : Fin 1) q) := by
  rw [addf_apply, shapeCast_self, shapeCast_self, shapeCast_self, broadcastTo_1b_ab_apply]
  exact congrArg (· + r (ix2 (0 : Fin 1) q))
    (Cert.MatmulPlain.matmul_plain_apply d hlc hrc hln hrn hlb hrb prec (truncf .bf16 x0 hlt) wt p q)

/-- Row b * S + s of the tall matrix is a row of it. -/
theorem row_lt (hn : n = B * S) (b : Fin B) (s : Fin S) : b.val * S + s.val < n := by
  have h1 : b.val * S + s.val < (b.val + 1) * S := by
    rw [Nat.add_mul, Nat.one_mul]; exact Nat.add_lt_add_left s.isLt _
  exact hn ▸ Nat.lt_of_lt_of_le h1 (Nat.mul_le_mul_right S b.isLt)

/-- The tall-matrix arrangement cut back into [B, S, O] is the layer: the input's rows stacked, the weight transposed
    and narrowed, the bias as a one-row matrix. -/
theorem linear_of_rows (hn : n = B * S) (x : FVec Ideal ⟨3, ![B, S, D]⟩ .f32) (w : FVec Ideal ⟨2, ![O, D]⟩ .f32)
    (bias : FVec Ideal ⟨1, ![O]⟩ .f32)
    (hx : (⟨3, ![B, S, D]⟩ : Shape).ShapeCasts ⟨2, ![n, D]⟩)
    (ht : (⟨2, ![O, D]⟩ : Shape).Transposes [1, 0] ⟨2, ![D, O]⟩)
    (hb : (⟨1, ![O]⟩ : Shape).ShapeCasts ⟨2, ![1, O]⟩)
    (ho : (⟨2, ![n, O]⟩ : Shape).ShapeCasts ⟨3, ![B, S, O]⟩)
    (hlt : FTy.bf16.bits < FTy.f32.bits) :
    shapeCast ⟨3, ![B, S, O]⟩
        (rows (shapeCast ⟨2, ![n, D]⟩ x hx) (truncf .bf16 (transpose ⟨2, ![D, O]⟩ [1, 0] w ht) hlt)
          (shapeCast ⟨2, ![1, O]⟩ bias hb)) ho
      = linear x w bias := by
  funext i
  obtain ⟨b, s, o, rfl⟩ : ∃ (b : Fin B) (s : Fin S) (o : Fin O), i = ix3 b s o := ⟨i 0, i 1, i 2, eq_ix3 i⟩
  rw [Cert.AxisReads.shapeCast_tall_stack_apply _ ho ⟨b.val * S + s.val, row_lt hn b s⟩ b s o rfl, rows_apply,
    linear_apply]
  refine congrArg₂ (· + ·) (Finset.sum_congr rfl fun k _ => ?_) (shapeCast_a_1a_apply bias hb 0 o)
  rw [Cert.AxisReads.shapeCast_stack_tall_apply x hx ⟨b.val * S + s.val, row_lt hn b s⟩ b s k rfl, truncf_apply,
    transpose_ix2_apply]

end Cert.LinearRows

end
-- ==== Proof.KernelBlocks.lean ====
/-
  What the kernel's output array holds after the region: the layer on the tall matrix of all rows.

  The grid has 64 points; point t takes rows 512 t … 512 t + 511 of the tall input matrix, the whole transposed weight
  and the whole bias row, and writes rows 512 t … 512 t + 511 of the output. The body's result block is `rows` of the
  block of input rows (its matrix product from the zero accumulator, plus the bias row down the block); entry (p, o)
  of that block reads row p of the block only, which is row 512 t + p of the input, so the block point t writes back
  is block t of ONE whole-array function, `rows` of the three arrays as the region finds them. The 64 row blocks
  tile the output: row r lies in block r / 512. Hence the output array ends at that function.
-/
import proofs.«147757_j88158498718371_2_alg».proof.Proof.Gen.KernelIdeal.Frame
import proofs.«147757_j88158498718371_2_alg».proof.Proof.LibLinearRows
import Idealize.ShloMosaic.Lib.Pipeline.Value

set_option maxRecDepth 16384

noncomputable section

open scoped BigOperators

namespace Cert.KernelIdeal.RowBlocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The body's result block is the layer on its block of rows: one store of the whole block, whose value at (p, q)
    is row p of the loaded rows against column q of the loaded weight, plus the loaded bias row at q. -/
theorem block_eq (x0 : Vec Ideal S512x1024 .f32) (x1 : Vec Ideal S1024x3072 .bf16) (x2 : Vec Ideal S1x3072 .f32) :
    out0_3 (F := Ideal) x0 x1 x2 = Cert.LinearRows.rows x0 x1 x2 := by
  unfold out0_3
  rw [View.canon_unit_zero origin]
  simp only [View.ld_unit_zero (S := S512x1024) origin, View.ld_unit_zero (S := S1024x3072) origin,
    View.ld_unit_zero (S := S1x3072) origin]
  funext j
  obtain ⟨p, q, rfl⟩ : ∃ (p : Fin 512) (q : Fin 3072), j = ix2 p q := ⟨j 0, j 1, eq_ix2 j⟩
  rw [Cert.LinearRows.rows_apply]
  unfold k0_pay1
  exact Cert.LinearRows.body_apply dot_S512x1024_S1024x3072_S512x3072_1_0_0_1_n_n rfl rfl rfl rfl rfl rfl none
    x0 x1 x2 _ _ _ _ _ p q

/-- The printed index maps, decided over the grid: the input rows move with the output rows, the weight and the bias
    row stay at block (0, 0), and the output's row block at point t is block t. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `rows` of the input matrix, the transposed weight and the bias row as the
    region finds them. -/
theorem flushed_eq (c : Dev nD) (t : Fin cfg0.N) :
    (dats m 0 c).flushed 3 t = ((cfg0.win 3).blk t).view.read (Elt Ideal)
      (Cert.LinearRows.rows (V m c main_v13) (V m c main_v11) (V m c main_v12)) := by
  show (cfg0.win 3).cut (grid0.coords t) ((dats m 0 c).after 3 t) = _
  rw [after0_3, block_eq]
  obtain ⟨e0, e1, e2, e3, e4, e5, e6, e7⟩ := index_facts t
  have ht : t.val < 64 := lt_of_lt_of_eq t.isLt N_0
  funext j
  obtain ⟨p, q, rfl⟩ : ∃ (p : Fin 512) (q : Fin 3072), j = ix2 p q := ⟨j 0, j 1, eq_ix2 j⟩
  have hp : p.val < 512 := p.isLt
  have hr : t.val * 512 + p.val < 32768 := by omega
  -- entry (p, q) of point t's output block sits at row 512 t + p, column q of the output array
  have he3 : ((cfg0.win 3).blk t).view.emb (ix2 p q) = ix2 (⟨t.val * 512 + p.val, hr⟩ : Fin 32768) q := by
    funext a; apply Fin.ext
    match a with
    | ⟨0, _⟩ => show win0_3.index t (0 : Fin 2) * 512 + 1 * p.val = t.val * 512 + p.val; omega
    | ⟨1, _⟩ => show win0_3.index t (1 : Fin 2) * 3072 + 1 * q.val = q.val; omega
  show Cert.LinearRows.rows (n := 512) (D := 1024) (O := 3072) (iblk m c 0 t) (iblk m c 1 t) (iblk m c 2 t) (ix2 p q)
      = Cert.LinearRows.rows (n := 32768) (D := 1024) (O := 3072) (V m c main_v13) (V m c main_v11) (V m c main_v12)
          (((cfg0.win 3).blk t).view.emb (ix2 p q))
  rw [he3, Cert.LinearRows.rows_apply, Cert.LinearRows.rows_apply]
  -- row p of the block of input rows is row 512 t + p of the input matrix
  have r0 : ∀ k : Fin 1024, iblk m c 0 t (ix2 p k) = V m c main_v13 (ix2 (⟨t.val * 512 + p.val, hr⟩ : Fin 32768) k) :=
    fun k => by
      show V m c main_v13 (((cfg0.win 0).blk t).view.emb (ix2 p k)) = V m c main_v13 (ix2 (⟨t.val * 512 + p.val, hr⟩ : Fin 32768) k)
      refine congrArg (V m c main_v13) (funext fun a => Fin.ext ?_)
      match a with
      | ⟨0, _⟩ => show win0_0.index t (0 : Fin 2) * 512 + 1 * p.val = t.val * 512 + p.val; omega
      | ⟨1, _⟩ => show win0_0.index t (1 : Fin 2) * 1024 + 1 * k.val = k.val; omega
  -- the weight's block is the whole transposed weight
  have r1 : ∀ k : Fin 1024, iblk m c 1 t (ix2 k q) = V m c main_v11 (ix2 k q) := fun k => by
    show V m c main_v11 (((cfg0.win 1).blk t).view.emb (ix2 k q)) = V m c main_v11 (ix2 k q)
    refine congrArg (V m c main_v11) (funext fun a => Fin.ext ?_)
    match a with
    | ⟨0, _⟩ => show win0_1.index t (0 : Fin 2) * 1024 + 1 * k.val = k.val; omega
    | ⟨1, _⟩ => show win0_1.index t (1 : Fin 2) * 3072 + 1 * q.val = q.val; omega
  -- the bias row's block is the whole bias row
  have r2 : iblk m c 2 t (ix2 (0 : Fin 1) q) = V m c main_v12 (ix2 (0 : Fin 1) q) := by
    show V m c main_v12 (((cfg0.win 2).blk t).view.emb (ix2 (0 : Fin 1) q)) = V m c main_v12 (ix2 (0 : Fin 1) q)
    refine congrArg (V m c main_v12) (funext fun a => Fin.ext ?_)
    match a with
    | ⟨0, _⟩ => show win0_2.index t (0 : Fin 2) * 1 + 1 * 0 = 0; omega
    | ⟨1, _⟩ => show win0_2.index t (1 : Fin 2) * 3072 + 1 * q.val = q.val; omega
  simp only [r0, r1, r2]

/-- An index of the output array is in point t's block iff each coordinate is in the block's range on its axis. -/
theorem mem_block (t : Fin cfg0.N) (i : S32768x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v14).slice (win0_3.rect t)).set ↔ _
  rw [View.set_slice_whole, Rect.mem_set_unit]
  exact Iff.rfl

/-- Every index of the output array is in the block of some point: row r is in block r / 512. -/
theorem covered (i : S32768x3072.Idx) :
    ∃ t : Fin cfg0.N, (cfg0.win 3).flush t = true ∧ i ∈ ((cfg0.win 3).blk t).view.set := by
  have hi0 : (i 0).val < 32768 := (i 0).isLt
  have hi1 : (i 1).val < 3072 := (i 1).isLt
  have hN : cfg0.N = 64 := N_0
  have hlt : (i 0).val / 512 < cfg0.N := by rw [hN]; omega
  obtain ⟨-, -, -, -, -, -, e6, e7⟩ := index_facts ⟨(i 0).val / 512, hlt⟩
  have e6' : win0_3.index ⟨(i 0).val / 512, hlt⟩ (0 : Fin 2) = (i 0).val / 512 := e6
  refine ⟨⟨(i 0).val / 512, hlt⟩, flush0_3 _, ?_⟩
  rw [mem_block]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e6']; omega
  | ⟨1, _⟩ =>
    show win0_3.index ⟨(i 0).val / 512, hlt⟩ (1 : Fin 2) * 3072 ≤ (i 1).val
      ∧ (i 1).val < win0_3.index ⟨(i 0).val / 512, hlt⟩ (1 : Fin 2) * 3072 + 3072
    rw [e7]; omega

/-- The output array after the run: `rows` of the input matrix, the transposed weight and the bias row as the region
    finds them. -/
theorem final (c : Dev nD) : (dats m 0 c).arrAt 3 cfg0.N
    = Cert.LinearRows.rows (V m c main_v13) (V m c main_v11) (V m c main_v12) :=
  (dats m 0 c).arrAt_eq_of_cover 3 _ (fun t _ => flushed_eq m c t) covered

end Cert.KernelIdeal.RowBlocks

end
-- ==== Proof.KernelHost.lean ====
/-
  The kernel's program around its region: what the region finds, and what the program returns.

  Before the call the host builds the merged weight (the argument weight plus the two scaled low-rank products stacked
  under a block of zeros), transposes it and narrows it to the kernel's weight format; lays the bias out as a one-row
  matrix; and stacks the rows of the input into one tall matrix. After the call it cuts the tall result back into
  [32, 1024, 3072]. With the region's output array at `rows` of those three arrays, the returned array is the linear
  layer of the input, the merged weight and the bias (`linear_of_rows`). The merged weight is carried as one term and
  never opened.
-/
import proofs.«147757_j88158498718371_2_alg».proof.Proof.KernelBlocks

set_option maxRecDepth 16384

noncomputable section

open scoped BigOperators

namespace Cert.KernelIdeal.HostValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The merged weight as the host operations before the call build it: the argument weight plus, under 1024 rows of
    zeros, the two low-rank products, each scaled by its scalar. Stated at any float instance, as the program is. -/
def mergedWeight {F : FTy → Type} [FloatOps F] (x1 : (⟨S3072x1024, .f32⟩ : BufTy).Contents (Elt F))
    (x3 x4 : (⟨S5x1024, .f32⟩ : BufTy).Contents (Elt F)) (x5 x6 : (⟨S1024x5, .f32⟩ : BufTy).Contents (Elt F))
    (x7 x8 : (⟨S_, .f32⟩ : BufTy).Contents (Elt F)) : (⟨S3072x1024, .f32⟩ : BufTy).Contents (Elt F) :=
  addf (x1) (concatenate S3072x1024 0 [⟨S1024x1024, (broadcastInDim S1024x1024 ![] bcast_S_S1024x1024 (constant S_ .f32 0x00000000#32))⟩, ⟨S2048x1024, (concatenate S2048x1024 0 [⟨S1024x1024, (mulf (broadcastInDim S1024x1024 ![] bcast_S_S1024x1024 (x7)) (Host.dotGeneral dot_S1024x5_S5x1024_S1024x1024_1_0_0_1_n_n none (x5) (x3)))⟩, ⟨S1024x1024, (mulf (broadcastInDim S1024x1024 ![] bcast_S_S1024x1024 (x8)) (Host.dotGeneral dot_S1024x5_S5x1024_S1024x1024_1_0_0_1_n_n none (x6) (x4)))⟩] concatenates_S1024x1024_S1024x1024_S2048x1024_d0)⟩] concatenates_S1024x1024_S2048x1024_S3072x1024_d0)

variable (m : (ℓ : Loc nD τ sig) → Buf (Elt Ideal) ℓ)

/-- The merged weight of core c's launch contents. -/
abbrev weightOf (c : Dev nD) : (⟨S3072x1024, .f32⟩ : BufTy).Contents (Elt Ideal) :=
  mergedWeight (F := Ideal) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The region finds the input with its rows stacked into one tall matrix. -/
theorem entry_rows (c : Dev nD) : (V m c main_v13 : S32768x1024.Idx → EReal)
    = shapeCast S32768x1024 (m ((c : Thread nD τ).loc main_arg0)) shapeCasts_S32x1024x1024_S32768x1024 := by
  show StableHlo.after hostOps0 (fun b => m (c, b)) (Proc.devRef .tc main_v13) = _
  after_results
  rfl

/-- The region finds the bias as a one-row matrix. -/
theorem entry_bias (c : Dev nD) : (V m c main_v12 : S1x3072.Idx → EReal)
    = shapeCast S1x3072 (m ((c : Thread nD τ).loc main_arg2)) shapeCasts_S3072_S1x3072 := by
  show StableHlo.after hostOps0 (fun b => m (c, b)) (Proc.devRef .tc main_v12) = _
  after_results
  rfl

/-- The region finds the merged weight transposed and narrowed. -/
theorem entry_weight (c : Dev nD) : (V m c main_v11 : S1024x3072.Idx → EReal)
    = truncf (F := Ideal) (φ := .f32) .bf16 (transpose S1024x3072 [1, 0] (weightOf m c) transposes_S3072x1024_S1024x3072_1_0) bitsLt_bf16_f32 := by
  show StableHlo.after hostOps0 (fun b => m (c, b)) (Proc.devRef .tc main_v11) = _
  after_results
  rfl

/-- What the program returns: the tall output cut back into [32, 1024, 3072], which is the linear layer of the input,
    the merged weight and the bias. The one host line after the region reshapes the region's output array; that array
    is `rows` of the stacked input, the transposed and narrowed merged weight and the bias row. -/
theorem result_eq (c : Dev nD) :
    Pipeline.afterTail₀ cfgs (dats m) 0 (V0 m) [hostOps1] c main_v15
      = Cert.LinearRows.linear (B := 32) (S := 1024) (D := 1024) (O := 3072) (m ((c.tc : Thread nD τ).loc main_arg0))
          (weightOf m c) (m ((c.tc : Thread nD τ).loc main_arg2)) := by
  unfold Pipeline.afterTail₀
  show StableHlo.after hostOps1 _ (Proc.devRef .tc main_v15) = _
  after_results
  have harr : Pipeline.withArrays spec0 c (V0 m c) (fun w => (dats m 0 c).arrAt w cfg0.N) (Proc.devRef .tc main_v14)
      = (dats m 0 c).arrAt 3 cfg0.N := Pipeline.withArrays_arr spec0 launch0.win.arr_inj c _ _ 3
  rw [harr, RowBlocks.final, entry_rows, entry_weight, entry_bias]
  exact Cert.LinearRows.linear_of_rows (B := 32) (S := 1024) (D := 1024) (O := 3072) (n := 32768) rfl _ _ _ _ _ _ _ _

/-- The kernel's run, read: every weakly fair execution terminates with the result at the linear layer of the input,
    the merged weight and the bias, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v15)
        = Cert.LinearRows.linear (B := 32) (S := 1024) (D := 1024) (O := 3072) (m ((c.tc : Thread nD τ).loc main_arg0))
            (weightOf m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.HostValue

end
-- ==== Proof.ReferenceLinear.lean ====
/-
  The reference's result is the linear layer of its input, the merged weight and the bias.

  The reference multiplies x : [32, 1024, 1024] with the merged weight [3072, 1024], contracting the last axis of each,
  and adds the bias repeated over the first two axes. Read at (b, s, o) that is the sum over k of
  x (b, s, k) * weight (o, k), plus bias o: the layer. The merged weight (the argument weight plus the two scaled
  low-rank products stacked under a block of zeros) is carried as one term and never opened.
-/
import proofs.«147757_j88158498718371_2_alg».proof.Proof.Gen.ReferenceIdeal.Read
import proofs.«147757_j88158498718371_2_alg».proof.Proof.LibLinearRows

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's last stage is the layer applied to the input, the merged weight (the stage before the
    contraction) and the bias: index by index the contraction reads row (b, s) of the input against row o of the
    weight, and the two broadcasts of the bias read its entry o. -/
theorem result_eq (x0 : (⟨S32x1024x1024, .f32⟩ : BufTy).Contents (Elt Ideal)) (x1 : (⟨S3072x1024, .f32⟩ : BufTy).Contents (Elt Ideal))
    (x2 : (⟨S3072, .f32⟩ : BufTy).Contents (Elt Ideal)) (x3 x4 : (⟨S5x1024, .f32⟩ : BufTy).Contents (Elt Ideal))
    (x5 x6 : (⟨S1024x5, .f32⟩ : BufTy).Contents (Elt Ideal)) (x7 x8 : (⟨S_, .f32⟩ : BufTy).Contents (Elt Ideal)) :
    val_main_v13 (F := Ideal) x0 x1 x2 x3 x4 x5 x6 x7 x8
      = Cert.LinearRows.linear x0 (val_main_v9 (F := Ideal) x1 x3 x4 x5 x6 x7 x8) x2 := by
  funext i
  obtain ⟨b, s, o, rfl⟩ : ∃ (b : Fin 32) (s : Fin 1024) (o : Fin 3072), i = ix3 b s o := ⟨i 0, i 1, i 2, eq_ix3 i⟩
  rw [val_main_v13_apply, val_main_v10_apply, val_main_v12_apply, val_main_v11_apply, Cert.LinearRows.linear_apply]
  have el : ∀ k : Fin 1024, lidx_main_v10 (ix3 b s o) k = ix3 b s k := fun k => funext fun a => by
    match a with | ⟨0, _⟩ => rfl | ⟨1, _⟩ => rfl | ⟨2, _⟩ => rfl
  have er : ∀ k : Fin 1024, ridx_main_v10 (ix3 b s o) k = ix2 o k := fun k => funext fun a => by
    match a with | ⟨0, _⟩ => rfl | ⟨1, _⟩ => rfl
  have eb : idx_main_v11 (idx_main_v12 (ix3 b s o)) = ix1 o := funext fun a => by
    match a with | ⟨0, _⟩ => rfl
  simp only [el, er, eb]
  rfl

end Cert.ReferenceIdeal.RefValue

end
-- ==== Proof.lean ====
/-
  A fused projection with a low-rank update merged into its weight: the kernel against its reference.

  Both programs first build the merged weight W' = W + delta, where delta is 1024 rows of zeros over the two low-rank
  products s0 * (B0 · A0) and s1 * (B1 · A1); they do so by the same host operations, so W' is one term here and is
  never opened. The reference then returns  out (b, s, o) = (∑ k, x (b, s, k) * W' (o, k)) + bias o.
  The kernel stacks the rows of x into one tall matrix [32768, 1024], transposes W' (and narrows it to the kernel's
  weight format, the identity on exact values), lays the bias out as a one-row matrix, and over 64 grid points computes
  512 rows at a time: the block of rows times the transposed weight from the zero accumulator, plus the bias row; the
  tall result is cut back into [32, 1024, 3072]. Entry (512 t + p, o) of the tall result reads row 512 t + p of the
  tall input only, so the 64 blocks are the blocks of one whole-array function and tile it; undoing the three layout
  steps index by index gives the reference's sum with each product's factors in the same order. No arithmetic law is
  used, so the precondition is never opened. The ideal pass rewrote nothing, so `preserves` is trivial.

  The frames of the two kernel programs are the generated ones; the reference's frame is its generated run with the
  result dropped. The reference's value is read through the generated read-at-an-index lemmas (ReferenceLinear.lean);
  the kernel's value is read off the generated frame run (KernelBlocks.lean, KernelHost.lean) over the layout lemmas
  of LibLinearRows.lean.
-/
import proofs.«147757_j88158498718371_2_alg».proof.Defs
import proofs.«147757_j88158498718371_2_alg».proof.Proof.Gen.Kernel
import proofs.«147757_j88158498718371_2_alg».proof.Proof.Gen.Kernel.Skeleton
import proofs.«147757_j88158498718371_2_alg».proof.Proof.Gen.Kernel.Launch
import proofs.«147757_j88158498718371_2_alg».proof.Proof.Gen.Kernel.Points
import proofs.«147757_j88158498718371_2_alg».proof.Proof.Gen.Kernel.Frame
import proofs.«147757_j88158498718371_2_alg».proof.Proof.Gen.KernelIdeal
import proofs.«147757_j88158498718371_2_alg».proof.Proof.Gen.KernelIdeal.Skeleton
import proofs.«147757_j88158498718371_2_alg».proof.Proof.Gen.KernelIdeal.Launch
import proofs.«147757_j88158498718371_2_alg».proof.Proof.Gen.KernelIdeal.Points
import proofs.«147757_j88158498718371_2_alg».proof.Proof.Gen.KernelIdeal.Frame
import proofs.«147757_j88158498718371_2_alg».proof.Proof.Gen.ReferenceIdeal
import proofs.«147757_j88158498718371_2_alg».proof.Proof.Gen.Pre_finite_inputs
import proofs.«147757_j88158498718371_2_alg».proof.Proof.Gen.ReferenceIdeal.Run
import proofs.«147757_j88158498718371_2_alg».proof.Proof.Gen.ReferenceIdeal.Read
import proofs.«147757_j88158498718371_2_alg».proof.Proof.KernelHost
import proofs.«147757_j88158498718371_2_alg».proof.Proof.ReferenceLinear
import Idealize.ShloMosaic.Adequacy
import Idealize.ShloMosaic.Init

noncomputable section

namespace Cert.Proof

open Idealize.ShloMosaic Idealize.SL.Sem

/-- The two programs build the merged weight by the same host operations of the same arguments: the reference's
    stage before its contraction is the kernel program's merged weight, operation for operation. -/
theorem weight_eq (x1 : (⟨Cert.ReferenceIdeal.S3072x1024, .f32⟩ : BufTy).Contents (Elt Ideal))
    (x3 x4 : (⟨Cert.ReferenceIdeal.S5x1024, .f32⟩ : BufTy).Contents (Elt Ideal))
    (x5 x6 : (⟨Cert.ReferenceIdeal.S1024x5, .f32⟩ : BufTy).Contents (Elt Ideal))
    (x7 x8 : (⟨Cert.ReferenceIdeal.S_, .f32⟩ : BufTy).Contents (Elt Ideal)) :
    Cert.ReferenceIdeal.Read.val_main_v9 (F := Ideal) x1 x3 x4 x5 x6 x7 x8
      = Cert.KernelIdeal.HostValue.mergedWeight (F := Ideal) x1 x3 x4 x5 x6 x7 x8 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the linear layer of the input, the merged weight and the bias, of arguments that
    agree: the kernel's by its run read off the frame, the reference's by its run read stage by stage. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v13_eq,
    Cert.ReferenceIdeal.RefValue.result_eq, weight_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
